-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2x2 : Shape := ⟨3, ![4194304, 2, 2]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S4194304x2x2 : S_.BroadcastsInDim S4194304x2x2 (![] : Fin 0 → Fin S4194304x2x2.rank)
  reducesTo_S4194304x2x2_S_d0_1_2 : S4194304x2x2.ReducesTo [0, 1, 2] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S16x1 .f32) (main_arg8 : FVec F S1 .f32) (main_v33 : IVec S_ 1) : IVec S_ 1 :=
  let main_v34 : FVec F S16x1 .f32 := Host.absf main_arg7
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S16 .f32) (main_arg5 : FVec F S16x16 .f32) (main_arg6 : FVec F S16 .f32) (main_arg7 : FVec F S16x1 .f32) (main_arg8 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S4194304x2x2 .f32) (main_arg1 : FVec F S2x16 .f32) (main_arg2 : FVec F S16 .f32) (main_arg3 : FVec F S16x16 .f32) (main_arg4 : FVec F S16 .f32) (main_arg5 : FVec F S16x16 .f32) (main_arg6 : FVec F S16 .f32) (main_arg7 : FVec F S16x1 .f32) (main_arg8 : FVec F S1 .f32) : IVec S_ 1 :=
  let main_v0 : FVec F S4194304x2x2 .f32 := Host.absf main_arg0
  let main_cst : FVec F S_ .f32 := constant S_ .f32 0x7F800000#32
  let main_v1 : FVec F S4194304x2x2 .f32 := broadcastInDim S4194304x2x2 ![] bcast_S_S4194304x2x2 main_cst
  let main_v2 : IVec S4194304x2x2 1 := cmpf .olt main_v0 main_v1
  let main_c : IVec S_ 1 := constantI S_ 1 1#1
  let main_v3 : IVec S_ 1 := (fun x v => Host.reduce IntOp.andi x v reducesTo_S4194304x2x2_S_d0_1_2 h_S_) main_v2 main_c
  let main_v4 : FVec F S2x16 .f32 := Host.absf main_arg1
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_arg7 main_arg8 main_v13 main_v16
-- ==== Kernel.lean ====
abbrev S4194304x2x2 : Shape := ⟨3, ![4194304, 2, 2]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S4194304x4 : Shape := ⟨2, ![4194304, 4]⟩
abbrev S4194304x1 : Shape := ⟨2, ![4194304, 1]⟩
abbrev S65536x4 : Shape := ⟨2, ![65536, 4]⟩
abbrev S65536x1 : Shape := ⟨2, ![65536, 1]⟩
abbrev S65536x2 : Shape := ⟨2, ![65536, 2]⟩
abbrev S65536x16 : Shape := ⟨2, ![65536, 16]⟩
abbrev S1x16 : Shape := ⟨2, ![1, 16]⟩
abbrev S1x1 : Shape := ⟨2, ![1, 1]⟩

abbrev nBuf : Space → Nat
  | .hbm => 11
  | .vmem => 12
  | .smem => 0
  | _ => 0

abbrev bufTy : (tb : Table) → Fin (tcTables nBuf tb) → BufTy
  | .hbm, ⟨0, _⟩ => ⟨S4194304x2x2, .f32⟩
  | .hbm, ⟨1, _⟩ => ⟨S2x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S4194304x4, .f32⟩
  | .hbm, ⟨10, _⟩ => ⟨S4194304x1, .f32⟩
  | .local _ .vmem, ⟨0, _⟩ => ⟨S65536x4, .f32⟩
  | .local _ .vmem, ⟨1, _⟩ => ⟨S65536x4, .f32⟩
  | .local _ .vmem, ⟨2, _⟩ => ⟨S2x16, .f32⟩
  | .local _ .vmem, ⟨3, _⟩ => ⟨S16, .f32⟩
  | .local _ .vmem, ⟨4, _⟩ => ⟨S16x16, .f32⟩
  | .local _ .vmem, ⟨5, _⟩ => ⟨S16, .f32⟩
  | .local _ .vmem, ⟨6, _⟩ => ⟨S16x16, .f32⟩
  | .local _ .vmem, ⟨7, _⟩ => ⟨S16, .f32⟩
  | .local _ .vmem, ⟨8, _⟩ => ⟨S16x1, .f32⟩
  | .local _ .vmem, ⟨9, _⟩ => ⟨S1, .f32⟩
  | .local _ .vmem, ⟨10, _⟩ => ⟨S65536x1, .f32⟩
  | .local _ .vmem, ⟨11, _⟩ => ⟨S65536x1, .f32⟩
  | _, _ => ⟨S4194304x2x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S65536x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S65536x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4194304x2x2_S4194304x4 : S4194304x2x2.ShapeCasts S4194304x4
  inb_S65536x4_S65536x4_0_0 : ∀ a, (![0, 0] : Fin 2 → Nat) a + S65536x4.size a ≤ S65536x4.size a
  h_S65536x4 : 0 < S65536x4.numel
  shapeCasts_S65536x4_S65536x4 : S65536x4.ShapeCasts S65536x4
  slices_S65536x4_o0_0_S65536x1 : S65536x4.Slices ![0, 0] S65536x1
  slices_S65536x4_o0_1_S65536x1 : S65536x4.Slices ![0, 1] S65536x1
  slices_S65536x4_o0_2_S65536x1 : S65536x4.Slices ![0, 2] S65536x1
  slices_S65536x4_o0_3_S65536x1 : S65536x4.Slices ![0, 3] S65536x1
  concatenates_S65536x1_S65536x1_S65536x2_d1 : Shape.Concatenates [S65536x1, S65536x1] S65536x2 1
  inb_S2x16_S2x16_0_0 : ∀ a, (![0, 0] : Fin 2 → Nat) a + S2x16.size a ≤ S2x16.size a
  h_S2x16 : 0 < S2x16.numel
  inb_S16_S16_0 : ∀ a, (![0] : Fin 1 → Nat) a + S16.size a ≤ S16.size a
  h_S16 : 0 < S16.numel
  shapeCasts_S16_S1x16 : S16.ShapeCasts S1x16
  broadcasts_S1x16_S65536x16 : S1x16.Broadcasts S65536x16
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S65536x1 : S1x1.Broadcasts S65536x1
  inb_S65536x1_S65536x1_0_0 : ∀ a, (![0, 0] : Fin 2 → Nat) a + S65536x1.size a ≤ S65536x1.size a
  h_S65536x1 : 0 < S65536x1.numel
  dot_S65536x2_S2x16_S65536x16_1_0_0_1_n_n_wf : DotDims.WF S65536x2 S2x16 S65536x16 [1] [0] [0] [1] [] []
  dot_S65536x16_S16x16_S65536x16_1_0_0_1_n_n_wf : DotDims.WF S65536x16 S16x16 S65536x16 [1] [0] [0] [1] [] []
  dot_S65536x16_S16x1_S65536x1_1_0_0_1_n_n_wf : DotDims.WF S65536x16 S16x1 S65536x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536x4.size a ≤ S4194304x4.size a
  hwx0_0 : ∀ i : grid0.Coords, EltTy.bits .f32 = 32 ∨ (Rect.block (s := S4194304x4) S65536x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x16.size a ≤ S2x16.size a
  hwx0_1 : ∀ i : grid0.Coords, EltTy.bits .f32 = 32 ∨ (Rect.block (s := S2x16) S2x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S16x1.size a
  hwx0_7 : ∀ i : grid0.Coords, EltTy.bits .f32 = 32 ∨ (Rect.block (s := S16x1) S16x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S65536x1.size a ≤ S4194304x1.size a
  hwx0_9 : ∀ i : grid0.Coords, EltTy.bits .f32 = 32 ∨ (Rect.block (s := S4194304x1) S65536x1.size (cc0_transform_9 i) (hinb0_9 i)).WholeWords (EltTy.packing .f32)

variable [Facts₀]

def dot_S65536x2_S2x16_S65536x16_1_0_0_1_n_n : DotDims S65536x2 S2x16 S65536x16 where
  lhsContracting := [1]
  rhsContracting := [0]
  lhsNonContracting := [0]
  rhsNonContracting := [1]
  lhsBatch := []
  rhsBatch := []
  wf := dot_S65536x2_S2x16_S65536x16_1_0_0_1_n_n_wf
def dot_S65536x16_S16x16_S65536x16_1_0_0_1_n_n : DotDims S65536x16 S16x16 S65536x16 where
  lhsContracting := [1]
  rhsContracting := [0]
  lhsNonContracting := [0]
  rhsNonContracting := [1]
  lhsBatch := []
  rhsBatch := []
  wf := dot_S65536x16_S16x16_S65536x16_1_0_0_1_n_n_wf
def dot_S65536x16_S16x1_S65536x1_1_0_0_1_n_n : DotDims S65536x16 S16x1 S65536x1 where
  lhsContracting := [1]
  rhsContracting := [0]
  lhsNonContracting := [0]
  rhsNonContracting := [1]
  lhsBatch := []
  rhsBatch := []
  wf := dot_S65536x16_S16x1_S65536x1_1_0_0_1_n_n_wf

abbrev win0_0 : Pipeline.Window sig grid0 :=
  Pipeline.Window.ofSpec (Memref.whole main_v0) S65536x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S65536x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4194304x2x2 : Shape := ⟨3, ![4194304, 2, 2]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S4194304x1x1 : Shape := ⟨3, ![4194304, 1, 1]⟩
abbrev S4194304 : Shape := ⟨1, ![4194304]⟩
abbrev S_ : Shape := ⟨0, ![]⟩
abbrev S4194304x1 : Shape := ⟨2, ![4194304, 1]⟩
abbrev S4194304x2 : Shape := ⟨2, ![4194304, 2]⟩
abbrev S4194304x16 : Shape := ⟨2, ![4194304, 16]⟩
abbrev S1x16 : Shape := ⟨2, ![1, 16]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S4194304x2x2, .f32⟩
  | .hbm, ⟨1, _⟩ => ⟨S2x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S4194304x2x2, .f32⟩
  | .hbm, ⟨10, _⟩ => ⟨S4194304x1x1, .f32⟩
  | .hbm, ⟨11, _⟩ => ⟨S4194304, .f32⟩
  | .hbm, ⟨12, _⟩ => ⟨S4194304x1x1, .f32⟩
  | .hbm, ⟨13, _⟩ => ⟨S4194304, .f32⟩
  | .hbm, ⟨14, _⟩ => ⟨S4194304, .f32⟩
  | .hbm, ⟨15, _⟩ => ⟨S4194304x1x1, .f32⟩
  | .hbm, ⟨16, _⟩ => ⟨S4194304, .f32⟩
  | .hbm, ⟨17, _⟩ => ⟨S4194304x1x1, .f32⟩
  | .hbm, ⟨18, _⟩ => ⟨S4194304, .f32⟩
  | .hbm, ⟨19, _⟩ => ⟨S4194304, .f32⟩
  | .hbm, ⟨20, _⟩ => ⟨S4194304x1x1, .f32⟩
  | .hbm, ⟨21, _⟩ => ⟨S4194304, .f32⟩
  | .hbm, ⟨22, _⟩ => ⟨S4194304x1x1, .f32⟩
  | .hbm, ⟨23, _⟩ => ⟨S4194304, .f32⟩
  | .hbm, ⟨24, _⟩ => ⟨S4194304, .f32⟩
  | .hbm, ⟨25, _⟩ => ⟨S4194304, .f32⟩
  | .hbm, ⟨26, _⟩ => ⟨S4194304, .f32⟩
  | .hbm, ⟨27, _⟩ => ⟨S_, .f32⟩
  | .hbm, ⟨28, _⟩ => ⟨S4194304, .f32⟩
  | .hbm, ⟨29, _⟩ => ⟨S4194304, .f32⟩
  | .hbm, ⟨30, _⟩ => ⟨S4194304, .f32⟩
  | .hbm, ⟨31, _⟩ => ⟨S_, .f32⟩
  | .hbm, ⟨32, _⟩ => ⟨S4194304, .f32⟩
  | .hbm, ⟨33, _⟩ => ⟨S4194304, .f32⟩
  | .hbm, ⟨34, _⟩ => ⟨S4194304, .f32⟩
  | .hbm, ⟨35, _⟩ => ⟨S4194304, .f32⟩
  | .hbm, ⟨36, _⟩ => ⟨S_, .f32⟩
  | .hbm, ⟨37, _⟩ => ⟨S4194304, .f32⟩
  | .hbm, ⟨38, _⟩ => ⟨S4194304, .f32⟩
  | .hbm, ⟨39, _⟩ => ⟨S4194304, .f32⟩
  | .hbm, ⟨40, _⟩ => ⟨S_, .f32⟩
  | .hbm, ⟨41, _⟩ => ⟨S4194304, .f32⟩
  | .hbm, ⟨42, _⟩ => ⟨S4194304, .f32⟩
  | .hbm, ⟨43, _⟩ => ⟨S4194304x1, .f32⟩
  | .hbm, ⟨44, _⟩ => ⟨S4194304x1, .f32⟩
  | .hbm, ⟨45, _⟩ => ⟨S4194304x2, .f32⟩
  | .hbm, ⟨46, _⟩ => ⟨S4194304x16, .f32⟩
  | .hbm, ⟨47, _⟩ => ⟨S1x16, .f32⟩
  | .hbm, ⟨48, _⟩ => ⟨S4194304x16, .f32⟩
  | .hbm, ⟨49, _⟩ => ⟨S4194304x16, .f32⟩
  | .hbm, ⟨50, _⟩ => ⟨S_, .f32⟩
  | .hbm, ⟨51, _⟩ => ⟨S4194304x16, .f32⟩
  | .hbm, ⟨52, _⟩ => ⟨S4194304x16, .f32⟩
  | .hbm, ⟨53, _⟩ => ⟨S4194304x16, .f32⟩
  | .hbm, ⟨54, _⟩ => ⟨S1x16, .f32⟩
  | .hbm, ⟨55, _⟩ => ⟨S4194304x16, .f32⟩
  | .hbm, ⟨56, _⟩ => ⟨S4194304x16, .f32⟩
  | .hbm, ⟨57, _⟩ => ⟨S_, .f32⟩
  | .hbm, ⟨58, _⟩ => ⟨S4194304x16, .f32⟩
  | .hbm, ⟨59, _⟩ => ⟨S4194304x16, .f32⟩
  | .hbm, ⟨60, _⟩ => ⟨S4194304x16, .f32⟩
  | .hbm, ⟨61, _⟩ => ⟨S1x16, .f32⟩
  | .hbm, ⟨62, _⟩ => ⟨S4194304x16, .f32⟩
  | .hbm, ⟨63, _⟩ => ⟨S4194304x16, .f32⟩
  | .hbm, ⟨64, _⟩ => ⟨S_, .f32⟩
  | .hbm, ⟨65, _⟩ => ⟨S4194304x16, .f32⟩
  | .hbm, ⟨66, _⟩ => ⟨S4194304x16, .f32⟩
  | .hbm, ⟨67, _⟩ => ⟨S4194304x1, .f32⟩
  | .hbm, ⟨68, _⟩ => ⟨S1x1, .f32⟩
  | .hbm, ⟨69, _⟩ => ⟨S4194304x1, .f32⟩
  | .hbm, ⟨70, _⟩ => ⟨S4194304x1, .f32⟩
  | _, _ => ⟨S4194304x2x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_cst : Ref sig .tc := ⟨.hbm, 50, rfl⟩
abbrev main_call0_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call1_cst : Ref sig .tc := ⟨.hbm, 57, rfl⟩
abbrev main_call1_v0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call2_cst : Ref sig .tc := ⟨.hbm, 64, rfl⟩
abbrev main_call2_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  slices_S4194304x2x2_S4194304x1x1_0_0_0 : S4194304x2x2.Slices ![0, 0, 0] S4194304x1x1
  shapeCasts_S4194304x1x1_S4194304 : S4194304x1x1.ShapeCasts S4194304
  slices_S4194304x2x2_S4194304x1x1_0_1_1 : S4194304x2x2.Slices ![0, 1, 1] S4194304x1x1
  slices_S4194304x2x2_S4194304x1x1_0_0_1 : S4194304x2x2.Slices ![0, 0, 1] S4194304x1x1
  slices_S4194304x2x2_S4194304x1x1_0_1_0 : S4194304x2x2.Slices ![0, 1, 0] S4194304x1x1
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  bcast_S16_S1x16_1 : S16.BroadcastsInDim S1x16 (![1] : Fin 1 → Fin S1x16.rank)
  bcast_S1x16_S4194304x16_0_1 : S1x16.BroadcastsInDim S4194304x16 (![0, 1] : Fin 2 → Fin S4194304x16.rank)
  bcast_S_S4194304x16 : S_.BroadcastsInDim S4194304x16 (![] : Fin 0 → Fin S4194304x16.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  dot_S4194304x2x2_S4194304x2x2_S4194304x2x2_1_1_2_2_0_0_wf : DotDims.WF S4194304x2x2 S4194304x2x2 S4194304x2x2 [1] [1] [2] [2] [0] [0]
  dot_S4194304x2_S2x16_S4194304x16_1_0_0_1_n_n_wf : DotDims.WF S4194304x2 S2x16 S4194304x16 [1] [0] [0] [1] [] []
  dot_S4194304x16_S16x16_S4194304x16_1_0_0_1_n_n_wf : DotDims.WF S4194304x16 S16x16 S4194304x16 [1] [0] [0] [1] [] []
  dot_S4194304x16_S16x1_S4194304x1_1_0_0_1_n_n_wf : DotDims.WF S4194304x16 S16x1 S4194304x1 [1] [0] [0] [1] [] []

variable [Facts₀]

def dot_S4194304x2x2_S4194304x2x2_S4194304x2x2_1_1_2_2_0_0 : DotDims S4194304x2x2 S4194304x2x2 S4194304x2x2 where
  lhsContracting := [1]
  rhsContracting := [1]
  lhsNonContracting := [2]
  rhsNonContracting := [2]
  lhsBatch := [0]
  rhsBatch := [0]
  wf := dot_S4194304x2x2_S4194304x2x2_S4194304x2x2_1_1_2_2_0_0_wf
def dot_S4194304x2_S2x16_S4194304x16_1_0_0_1_n_n : DotDims S4194304x2 S2x16 S4194304x16 where
  lhsContracting := [1]
  rhsContracting := [0]
  lhsNonContracting := [0]
  rhsNonContracting := [1]
  lhsBatch := []
  rhsBatch := []
  wf := dot_S4194304x2_S2x16_S4194304x16_1_0_0_1_n_n_wf
def dot_S4194304x16_S16x16_S4194304x16_1_0_0_1_n_n : DotDims S4194304x16 S16x16 S4194304x16 where
  lhsContracting := [1]
  rhsContracting := [0]
  lhsNonContracting := [0]
  rhsNonContracting := [1]
  lhsBatch := []
  rhsBatch := []
  wf := dot_S4194304x16_S16x16_S4194304x16_1_0_0_1_n_n_wf
def dot_S4194304x16_S16x1_S4194304x1_1_0_0_1_n_n : DotDims S4194304x16 S16x1 S4194304x1 where
  lhsContracting := [1]
  rhsContracting := [0]
  lhsNonContracting := [0]
  rhsNonContracting := [1]
  lhsBatch := []
  rhsBatch := []
  wf := dot_S4194304x16_S16x1_S4194304x1_1_0_0_1_n_n_wf

class Facts : Prop extends Facts₀ where

variable [Facts]
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«156269_j83202106458323_1_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibHostBroadcast.lean ====
/-
  The host's `broadcast_in_dim` in its four keepdims forms, read at an entry: a vector `[a]` as a column `[a, 1]`, a
  column `[a, 1]` spread over `b` lanes, a vector `[c]` as a row `[1, c]`, and a row `[1, c]` spread down `a` rows.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- A vector `[a]` broadcast along axis 0 to the column `[a, 1]` reads, at `(i, u)`, the vector at `i`. -/
theorem vec_to_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A column `[a, 1]` broadcast to `[a, b]` reads, at `(i, j)`, the column at `(i, 0)`. -/
theorem col_to_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x (ix2 i j) (ix2 i (0 : Fin 1)) fun ax => by
    match ax with
    | ⟨0, _⟩ =>
      show i.val = if a = 1 then 0 else i.val
      split
      · have := i.isLt; omega
      · rfl
    | ⟨1, _⟩ =>
      show 0 = if (1 : ℕ) = 1 then 0 else j.val
      rw [if_pos rfl]

/-- A vector `[c]` broadcast along axis 1 to the row `[1, c]` reads, at `(u, j)`, the vector at `j`. -/
theorem vec_to_row_apply {c : ℕ} (x : (⟨1, ![c]⟩ : Shape).Idx → α)
    (h : (⟨1, ![c]⟩ : Shape).BroadcastsInDim ⟨2, ![1, c]⟩ (![1] : Fin 1 → Fin 2)) (u : Fin 1) (j : Fin c) :
    broadcastInDim ⟨2, ![1, c]⟩ (![1] : Fin 1 → Fin 2) h x (ix2 u j) = x (ix1 j) :=
  broadcastInDim_apply _ h x (ix2 u j) (ix1 j) fun ax => by
    match ax with
    | ⟨0, _⟩ =>
      show j.val = if c = 1 then 0 else j.val
      split
      · have := j.isLt; omega
      · rfl

/-- A row `[1, c]` broadcast to `[a, c]` reads, at `(i, j)`, the row at `(0, j)`. -/
theorem row_to_mat_apply {a c : ℕ} (x : (⟨2, ![1, c]⟩ : Shape).Idx → α)
    (h : (⟨2, ![1, c]⟩ : Shape).BroadcastsInDim ⟨2, ![a, c]⟩ (![0, 1] : Fin 2 → Fin 2)) (i : Fin a) (j : Fin c) :
    broadcastInDim ⟨2, ![a, c]⟩ (![0, 1] : Fin 2 → Fin 2) h x (ix2 i j) = x (ix2 (0 : Fin 1) j) :=
  broadcastInDim_apply _ h x (ix2 i j) (ix2 (0 : Fin 1) j) fun ax => by
    match ax with
    | ⟨0, _⟩ =>
      show 0 = if (1 : ℕ) = 1 then 0 else i.val
      rw [if_pos rfl]
    | ⟨1, _⟩ =>
      show j.val = if c = 1 then 0 else j.val
      split
      · have := j.isLt; omega
      · rfl

end Cert.LibHostBroadcast

end
-- ==== Proof.LibRowLayers.lean ====
/-
  A dense layer and a rectifier acting on ONE ROW of a matrix, over the extended reals, for any extents, and how a kernel
  and a host program each compute a row of such a layer: general lemmas.

  `layer x w b` sends a row `x` (k entries) to the row whose entry q is  Σ_j x(j) · w(j, q) + b(q);
  `rectify z x` takes the larger of each entry and the scalar `z`.
  A matrix product has no interaction between rows: row p of  X · W + bias  is  `layer` of row p of X.  So both a kernel's
  product into a zero accumulator plus its broadcast bias row, and the host's `dot_general` plus the bias vector spread
  as a row and then down the rows, read one row at a time, are `layer` of the operand's row; the two rectifier spellings
  (a splat scalar, a rank-0 constant spread over the matrix) are `rectify`. Only the shape of a sum is used: nothing here
  needs the entries to be finite.
-/
import proofs.«156269_j83202106458323_1_alg».proof.Proof.LibMatRows
import proofs.«156269_j83202106458323_1_alg».proof.Proof.LibHostBroadcast
import Idealize.ShloMosaic.Lib.ValueLayout
import Idealize.ShloMosaic.Lib.Pipeline.Value
import Idealize.ShloMosaic.Lib.ValueIdx
import Idealize.ShloMosaic.PureOps.Ideal.Laws

noncomputable section

namespace Cert.LibRowLayers

open Idealize.ShloMosaic Idealize.ShloMosaic.ValueIdx Cert.LibMatRows Cert.LibHostBroadcast

variable {a k n : ℕ}

/-! ## Rows, and the two layers on a row -/

/-- Row `p` of a matrix. -/
def row (x : (⟨2, ![a, k]⟩ : Shape).Idx → EReal) (p : Fin a) : Fin k → EReal := fun j => x (ix2 p j)

/-- A weight matrix as a function of its two coordinates. -/
def mat (w : (⟨2, ![k, n]⟩ : Shape).Idx → EReal) : Fin k → Fin n → EReal := fun j q => w (ix2 j q)

/-- A bias vector as a function of its coordinate. -/
def vec (b : (⟨1, ![n]⟩ : Shape).Idx → EReal) : Fin n → EReal := fun q => b (ix1 q)

/-- The dense layer on a row: entry q is  Σ_j x(j) · w(j, q) + b(q). -/
def layer (x : Fin k → EReal) (w : Fin k → Fin n → EReal) (b : Fin n → EReal) : Fin n → EReal :=
  fun q => (∑ j : Fin k, x j * w j q) + b q

/-- The rectifier against a scalar `z`, entry by entry. -/
def rectify (z : EReal) (x : Fin n → EReal) : Fin n → EReal := fun q => max (x q) z

/-! ## A kernel's row -/

/-- Row p of a product into the zero accumulator plus the bias vector, recast as a row and spread down the rows. -/
theorem kernel_layer_row {d : DotDims ⟨2, ![a, k]⟩ ⟨2, ![k, n]⟩ ⟨2, ![a, n]⟩} (hd : RowsTimesMat d) {φ₁ φ₂ : FTy}
    (x : FVec Ideal ⟨2, ![a, k]⟩ φ₁) (w : FVec Ideal ⟨2, ![k, n]⟩ φ₂) (b : FVec Ideal ⟨1, ![n]⟩ .f32)
    (hs : (⟨1, ![n]⟩ : Shape).ShapeCasts ⟨2, ![1, n]⟩) (hb : (⟨2, ![1, n]⟩ : Shape).Broadcasts ⟨2, ![a, n]⟩) (p : Fin a) :
    row (addf (matmul d none x w (constant (F := Ideal) ⟨2, ![a, n]⟩ .f32 0x00000000#32))
        (broadcastTo ⟨2, ![a, n]⟩ (shapeCast ⟨2, ![1, n]⟩ b hs) hb)) p
      = layer (row x p) (mat w) (vec b) :=
  funext fun q => congrArg₂ (· + ·) (matmul_rows hd x w p q)
    ((broadcastTo_1b_ab_apply _ hb p q).trans (shapeCast_a_1a_apply b hs 0 q))

/-- Row p of the entrywise maximum with a splat scalar. -/
theorem kernel_rectify_row (y : FVec Ideal ⟨2, ![a, n]⟩ .f32) (z : Ideal .f32) (p : Fin a) :
    row (maximumf y (broadcast ⟨2, ![a, n]⟩ z)) p = rectify z (row y p) := rfl

/-! ## The host's row -/

/-- Row p of the host's product plus the bias vector spread as a row and then down the rows. -/
theorem host_layer_row {d : DotDims ⟨2, ![a, k]⟩ ⟨2, ![k, n]⟩ ⟨2, ![a, n]⟩} (hd : RowsTimesMat d) {φ₁ φ₂ : FTy}
    (x : FVec Ideal ⟨2, ![a, k]⟩ φ₁) (w : FVec Ideal ⟨2, ![k, n]⟩ φ₂) (b : FVec Ideal ⟨1, ![n]⟩ .f32)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (p : Fin a) :
    row (addf (Host.dotGeneral d none x w)
        (broadcastInDim ⟨2, ![a, n]⟩ (![0, 1] : Fin 2 → Fin 2) h2 (broadcastInDim ⟨2, ![1, n]⟩ (![1] : Fin 1 → Fin 2) h1 b))) p
      = layer (row x p) (mat w) (vec b) :=
  funext fun q => congrArg₂ (· + ·) (dotGeneral_rows hd x w p q)
    ((row_to_mat_apply _ h2 p q).trans (vec_to_row_apply b h1 0 q))

/-- Row p of the entrywise maximum with a rank-0 constant spread over the matrix. -/
theorem host_rectify_row (y : FVec Ideal ⟨2, ![a, n]⟩ .f32) (z : BitVec 32)
    (h : (⟨0, ![]⟩ : Shape).BroadcastsInDim ⟨2, ![a, n]⟩ (![] : Fin 0 → Fin 2)) (p : Fin a) :
    row (maximumf y (broadcastInDim ⟨2, ![a, n]⟩ (![] : Fin 0 → Fin 2) h (constant (F := Ideal) ⟨0, ![]⟩ .f32 z))) p
      = rectify (Ideal.ofBits .f32 z) (row y p) :=
  funext fun q => congrArg (max (y (ix2 p q)))
    (broadcastInDim_apply _ h _ (ix2 p q) ix0 fun ax => ax.elim0)

end Cert.LibRowLayers

end
-- ==== Proof.LibJoin.lean ====
/-
  Two matrices joined along the rows or along the columns, read at an entry: general lemmas.

  Joining X (a rows) on top of Y (a' rows) gives a matrix of a + a' rows whose row r is row r of X when r < a and row
  r − a of Y otherwise; joining X (k₁ columns) to the left of Y (k₂ columns) gives a matrix of k₁ + k₂ columns whose
  column j is column j of X when j < k₁ and column j − k₁ of Y otherwise.
-/
import Idealize.ShloMosaic.Lib.Pipeline.Value
import Idealize.ShloMosaic.Lib.ValueIdx

noncomputable section

namespace Cert.LibJoin

open Idealize.ShloMosaic Idealize.ShloMosaic.ValueIdx

variable {α : Type} {a a' n k k1 k2 : ℕ}

/-- A row of the upper part of a join along the rows. -/
theorem joinRows_apply_top (X : (⟨2, ![a, k]⟩ : Shape).Idx → α) (Y : (⟨2, ![a', k]⟩ : Shape).Idx → α)
    (h : Shape.Concatenates [(⟨2, ![a, k]⟩ : Shape), ⟨2, ![a', k]⟩] ⟨2, ![n, k]⟩ 0) (r : Fin n) (hr : r.val < a) (j : Fin k) :
    concatenate ⟨2, ![n, k]⟩ 0 [⟨⟨2, ![a, k]⟩, X⟩, ⟨⟨2, ![a', k]⟩, Y⟩] h (ix2 r j) = X (ix2 (⟨r.val, hr⟩ : Fin a) j) := by
  refine concatenate_pair_apply_left (t := ⟨2, ![n, k]⟩) (0 : Fin 2) X Y h _ rfl (ix2 (⟨r.val, hr⟩ : Fin a) j) fun ax => ?_
  match ax with
  | ⟨0, _⟩ => rfl
  | ⟨1, _⟩ => rfl

/-- A row of the lower part of a join along the rows. -/
theorem joinRows_apply_bot (X : (⟨2, ![a, k]⟩ : Shape).Idx → α) (Y : (⟨2, ![a', k]⟩ : Shape).Idx → α)
    (h : Shape.Concatenates [(⟨2, ![a, k]⟩ : Shape), ⟨2, ![a', k]⟩] ⟨2, ![n, k]⟩ 0) (r : Fin n) (hr : a ≤ r.val)
    (hr' : r.val - a < a') (j : Fin k) :
    concatenate ⟨2, ![n, k]⟩ 0 [⟨⟨2, ![a, k]⟩, X⟩, ⟨⟨2, ![a', k]⟩, Y⟩] h (ix2 r j) = Y (ix2 (⟨r.val - a, hr'⟩ : Fin a') j) := by
  refine concatenate_pair_apply_right (t := ⟨2, ![n, k]⟩) (0 : Fin 2) X Y h _ rfl rfl (ix2 (⟨r.val - a, hr'⟩ : Fin a') j)
    (fun ax hax => ?_) ?_
  · match ax with
    | ⟨0, _⟩ => exact absurd rfl hax
    | ⟨1, _⟩ => rfl
  · show r.val - a + a = r.val
    omega

/-- A column of the left part of a join along the columns. -/
theorem joinCols_apply_left (X : (⟨2, ![a, k1]⟩ : Shape).Idx → α) (Y : (⟨2, ![a, k2]⟩ : Shape).Idx → α)
    (h : Shape.Concatenates [(⟨2, ![a, k1]⟩ : Shape), ⟨2, ![a, k2]⟩] ⟨2, ![a, k]⟩ 1) (r : Fin a) (j : Fin k) (hj : j.val < k1) :
    concatenate ⟨2, ![a, k]⟩ 1 [⟨⟨2, ![a, k1]⟩, X⟩, ⟨⟨2, ![a, k2]⟩, Y⟩] h (ix2 r j) = X (ix2 r (⟨j.val, hj⟩ : Fin k1)) := by
  refine concatenate_pair_apply_left (t := ⟨2, ![a, k]⟩) (1 : Fin 2) X Y h _ rfl (ix2 r (⟨j.val, hj⟩ : Fin k1)) fun ax => ?_
  match ax with
  | ⟨0, _⟩ => rfl
  | ⟨1, _⟩ => rfl

/-- A column of the right part of a join along the columns. -/
theorem joinCols_apply_right (X : (⟨2, ![a, k1]⟩ : Shape).Idx → α) (Y : (⟨2, ![a, k2]⟩ : Shape).Idx → α)
    (h : Shape.Concatenates [(⟨2, ![a, k1]⟩ : Shape), ⟨2, ![a, k2]⟩] ⟨2, ![a, k]⟩ 1) (r : Fin a) (j : Fin k) (hj : k1 ≤ j.val)
    (hj' : j.val - k1 < k2) :
    concatenate ⟨2, ![a, k]⟩ 1 [⟨⟨2, ![a, k1]⟩, X⟩, ⟨⟨2, ![a, k2]⟩, Y⟩] h (ix2 r j) = Y (ix2 r (⟨j.val - k1, hj'⟩ : Fin k2)) := by
  refine concatenate_pair_apply_right (t := ⟨2, ![a, k]⟩) (1 : Fin 2) X Y h _ rfl rfl (ix2 r (⟨j.val - k1, hj'⟩ : Fin k2))
    (fun ax hax => ?_) ?_
  · match ax with
    | ⟨0, _⟩ => rfl
    | ⟨1, _⟩ => exact absurd rfl hax
  · show j.val - k1 + k1 = j.val
    omega

end Cert.LibJoin

end
-- ==== Proof.Spec.lean ====
/-
  What both programs compute, as ONE function of the argument arrays.

  Each of the 4194304 rows n carries a 2×2 matrix  F = [[a, b], [c, d]].  The symmetric matrix  C = FᵀF  has
      trace        t = a² + b² + c² + d²,
      determinant  D = (a² + c²)(b² + d²) − (ab + cd)²,
  and its two eigenvalues are  ½ (t ± √ max(t² − 4D, ε)),  ε the f32 word written for 1e-8 (the clamp keeps the root's
  argument away from a negative rounding residue; over the extended reals it is simply part of the function).
  The two eigenvalues are the input row of a four-layer perceptron, 2 → 16 → 16 → 16 → 1, each layer
  `x ↦ x · W + b`, the first three followed by the rectifier `max(·, 0)`.  Row n of the result, one number, depends on
  row n of F only.

  The reference forms C by a contraction, entry (j, k) = Σ_i F(i, j) · F(i, k), and reads t = C₀₀ + C₁₁ and
  D = C₀₀ C₁₁ − C₀₁ C₁₀ off it; the kernel writes the same polynomials directly in a, b, c, d.  The two spellings differ by
  the order of the four squares in the trace and by the order of the two factors in C₁₀ = ba + dc: commutativity and
  associativity of + and of · alone, which hold on all of the extended reals — no entry needs to be finite.
-/
import proofs.«156269_j83202106458323_1_alg».proof.Proof.LibRowLayers
import Idealize.ShloMosaic.PureOps.Ideal
import Idealize.ShloMosaic.Lib.ValueIdx

noncomputable section

namespace Cert.EigenNet

open Idealize.ShloMosaic Idealize.ShloMosaic.ValueIdx Cert.LibRowLayers

/-! ## The scalars both programs write as f32 words -/

/-- 4. -/
def four : EReal := Ideal.ofBits .f32 0x40800000#32
/-- The lower clamp under the square root (the f32 nearest 1e-8). -/
def clamp : EReal := Ideal.ofBits .f32 0x322BCC77#32
/-- ½. -/
def half : EReal := Ideal.ofBits .f32 0x3F000000#32
/-- 0, the rectifier's threshold. -/
def zero : EReal := Ideal.ofBits .f32 0x00000000#32

/-! ## The eigenvalues of FᵀF -/

/-- The trace of FᵀF for F = [[a, b], [c, d]]: the four squares, summed in reading order. -/
def trace (a b c d : EReal) : EReal := a * a + b * b + c * c + d * d

/-- The determinant of FᵀF: (a² + c²)(b² + d²) − (ab + cd)². -/
def det (a b c d : EReal) : EReal := (a * a + c * c) * (b * b + d * d) - (a * b + c * d) * (a * b + c * d)

/-- The gap between the two eigenvalues of a symmetric 2×2 matrix of trace t and determinant D, clamped below. -/
def gap (t D : EReal) : EReal := Ideal.sqrt (max (t * t - four * D) clamp)

/-- The two eigenvalues, the larger first. -/
def eigs (t D : EReal) : Fin 2 → EReal := fun k => if k.val = 0 then half * (t + gap t D) else half * (t - gap t D)

/-! ## The perceptron on a row -/

/-- The network's one output for a row whose Gram matrix has trace t and determinant D. -/
def rowOut (t D : EReal) (w1 : Fin 2 → Fin 16 → EReal) (b1 : Fin 16 → EReal) (w2 : Fin 16 → Fin 16 → EReal) (b2 : Fin 16 → EReal)
    (w3 : Fin 16 → Fin 16 → EReal) (b3 : Fin 16 → EReal) (w4 : Fin 16 → Fin 1 → EReal) (b4 : Fin 1 → EReal) : Fin 1 → EReal :=
  layer (rectify zero (layer (rectify zero (layer (rectify zero (layer (eigs t D) w1 b1)) w2 b2)) w3 b3)) w4 b4

/-! ## The whole result -/

/-- Entry (n, u) of the result: the network on the eigenvalues of row n's FᵀF. -/
def outAt (F : (⟨3, ![4194304, 2, 2]⟩ : Shape).Idx → EReal)
    (W1 : (⟨2, ![2, 16]⟩ : Shape).Idx → EReal) (B1 : (⟨1, ![16]⟩ : Shape).Idx → EReal)
    (W2 : (⟨2, ![16, 16]⟩ : Shape).Idx → EReal) (B2 : (⟨1, ![16]⟩ : Shape).Idx → EReal)
    (W3 : (⟨2, ![16, 16]⟩ : Shape).Idx → EReal) (B3 : (⟨1, ![16]⟩ : Shape).Idx → EReal)
    (W4 : (⟨2, ![16, 1]⟩ : Shape).Idx → EReal) (B4 : (⟨1, ![1]⟩ : Shape).Idx → EReal) (n : Fin 4194304) (u : Fin 1) : EReal :=
  rowOut (trace (F (ix3 n (0 : Fin 2) (0 : Fin 2))) (F (ix3 n (0 : Fin 2) (1 : Fin 2))) (F (ix3 n (1 : Fin 2) (0 : Fin 2))) (F (ix3 n (1 : Fin 2) (1 : Fin 2))))
    (det (F (ix3 n (0 : Fin 2) (0 : Fin 2))) (F (ix3 n (0 : Fin 2) (1 : Fin 2))) (F (ix3 n (1 : Fin 2) (0 : Fin 2))) (F (ix3 n (1 : Fin 2) (1 : Fin 2))))
    (mat W1) (vec B1) (mat W2) (vec B2) (mat W3) (vec B3) (mat W4) (vec B4) u

/-- The result array as one function of the nine argument arrays. -/
def G (F : (⟨3, ![4194304, 2, 2]⟩ : Shape).Idx → EReal)
    (W1 : (⟨2, ![2, 16]⟩ : Shape).Idx → EReal) (B1 : (⟨1, ![16]⟩ : Shape).Idx → EReal)
    (W2 : (⟨2, ![16, 16]⟩ : Shape).Idx → EReal) (B2 : (⟨1, ![16]⟩ : Shape).Idx → EReal)
    (W3 : (⟨2, ![16, 16]⟩ : Shape).Idx → EReal) (B3 : (⟨1, ![16]⟩ : Shape).Idx → EReal)
    (W4 : (⟨2, ![16, 1]⟩ : Shape).Idx → EReal) (B4 : (⟨1, ![1]⟩ : Shape).Idx → EReal) :
    (⟨2, ![4194304, 1]⟩ : Shape).Idx → EReal :=
  fun i => outAt F W1 B1 W2 B2 W3 B3 W4 B4 (i 0) (i 1)

/-! ## The reference's spelling: trace and determinant read off the contraction FᵀF -/

/-- Entry (j, k) of FᵀF for a 2×2 matrix given by its entries. -/
def gram (f : Fin 2 → Fin 2 → EReal) (j k : Fin 2) : EReal := ∑ i : Fin 2, f i j * f i k

/-- C₀₀ + C₁₁ is the sum of the four squares: the same four terms, regrouped. -/
theorem gram_trace (f : Fin 2 → Fin 2 → EReal) :
    gram f 0 0 + gram f 1 1 = trace (f 0 0) (f 0 1) (f 1 0) (f 1 1) := by
  simp only [gram, Fin.sum_univ_two, trace]
  ac_rfl

/-- C₀₀ C₁₁ − C₀₁ C₁₀ is the kernel's determinant: C₁₀ = ba + dc is C₀₁ = ab + cd with each product's factors swapped. -/
theorem gram_det (f : Fin 2 → Fin 2 → EReal) :
    gram f 0 0 * gram f 1 1 - gram f 0 1 * gram f 1 0 = det (f 0 0) (f 0 1) (f 1 0) (f 1 1) := by
  simp only [gram, Fin.sum_univ_two, det]
  rw [mul_comm (f 0 1) (f 0 0), mul_comm (f 1 1) (f 1 0)]

end Cert.EigenNet

end
-- ==== Proof.KernelRow.lean ====
/-
  One row of the kernel's block, at the ideal values.

  The body loads a block of 65536 rows of the flattened matrices, [a, b, c, d] per row, and the eight weight arrays whole.
  Everything it computes is row by row: the four columns of the block give, entry by entry, the trace and determinant
  polynomials, the clamped root and the two eigenvalues, joined as the two columns of a [65536, 2] matrix; then three
  products with bias and rectifier and a last product with bias.  So row p of what it stores is the network of
  `Spec` on the eigenvalues of row p's four entries: `block_row`.
-/
import proofs.«156269_j83202106458323_1_alg».proof.Proof.Gen.KernelIdeal.Skeleton
import proofs.«156269_j83202106458323_1_alg».proof.Proof.LibRowLayers
import proofs.«156269_j83202106458323_1_alg».proof.Proof.LibJoin
import proofs.«156269_j83202106458323_1_alg».proof.Proof.Spec
import Idealize.ShloMosaic.Lib.ValueLayout
import Idealize.ShloMosaic.Lib.Pipeline.Value
import Idealize.ShloMosaic.Lib.ValueIdx

noncomputable section

namespace Cert.KernelIdeal.Row

open Cert.KernelIdeal Cert.KernelIdeal.Gen Idealize.ShloMosaic Idealize.ShloMosaic.ValueIdx
open Cert.LibRowLayers Cert.LibMatRows Cert.LibJoin Cert.EigenNet

/-! ## The three products are plain rows-times-matrix products -/

/-- The [65536, 2] × [2, 16] product contracts the shared axis of extent 2. -/
theorem plain_2_16 : RowsTimesMat dot_S65536x2_S2x16_S65536x16_1_0_0_1_n_n where
  rank := rfl
  size := rfl
  l0 i q := by
    unfold DotDims.lhsIdx
    rw [dif_neg (show ¬(0 : Fin S65536x2.rank) ∈ dot_S65536x2_S2x16_S65536x16_1_0_0_1_n_n.lhsBatch by decide), dif_pos (show (0 : Fin S65536x2.rank) ∈ dot_S65536x2_S2x16_S65536x16_1_0_0_1_n_n.lhsNonContracting by decide)]
    rfl
  l1 i q := dot_S65536x2_S2x16_S65536x16_1_0_0_1_n_n.lhsIdx_val_of_single rfl i q
  r0 i q := dot_S65536x2_S2x16_S65536x16_1_0_0_1_n_n.rhsIdx_val_of_single rfl i q
  r1 i q := by
    unfold DotDims.rhsIdx
    rw [dif_neg (show ¬(1 : Fin S2x16.rank) ∈ dot_S65536x2_S2x16_S65536x16_1_0_0_1_n_n.rhsBatch by decide), dif_pos (show (1 : Fin S2x16.rank) ∈ dot_S65536x2_S2x16_S65536x16_1_0_0_1_n_n.rhsNonContracting by decide)]
    rfl

/-- The [65536, 16] × [16, 16] product contracts the shared axis of extent 16. -/
theorem plain_16_16 : RowsTimesMat dot_S65536x16_S16x16_S65536x16_1_0_0_1_n_n where
  rank := rfl
  size := rfl
  l0 i q := by
    unfold DotDims.lhsIdx
    rw [dif_neg (show ¬(0 : Fin S65536x16.rank) ∈ dot_S65536x16_S16x16_S65536x16_1_0_0_1_n_n.lhsBatch by decide), dif_pos (show (0 : Fin S65536x16.rank) ∈ dot_S65536x16_S16x16_S65536x16_1_0_0_1_n_n.lhsNonContracting by decide)]
    rfl
  l1 i q := dot_S65536x16_S16x16_S65536x16_1_0_0_1_n_n.lhsIdx_val_of_single rfl i q
  r0 i q := dot_S65536x16_S16x16_S65536x16_1_0_0_1_n_n.rhsIdx_val_of_single rfl i q
  r1 i q := by
    unfold DotDims.rhsIdx
    rw [dif_neg (show ¬(1 : Fin S16x16.rank) ∈ dot_S65536x16_S16x16_S65536x16_1_0_0_1_n_n.rhsBatch by decide), dif_pos (show (1 : Fin S16x16.rank) ∈ dot_S65536x16_S16x16_S65536x16_1_0_0_1_n_n.rhsNonContracting by decide)]
    rfl

/-- The [65536, 16] × [16, 1] product contracts the shared axis of extent 16. -/
theorem plain_16_1 : RowsTimesMat dot_S65536x16_S16x1_S65536x1_1_0_0_1_n_n where
  rank := rfl
  size := rfl
  l0 i q := by
    unfold DotDims.lhsIdx
    rw [dif_neg (show ¬(0 : Fin S65536x16.rank) ∈ dot_S65536x16_S16x1_S65536x1_1_0_0_1_n_n.lhsBatch by decide), dif_pos (show (0 : Fin S65536x16.rank) ∈ dot_S65536x16_S16x1_S65536x1_1_0_0_1_n_n.lhsNonContracting by decide)]
    rfl
  l1 i q := dot_S65536x16_S16x1_S65536x1_1_0_0_1_n_n.lhsIdx_val_of_single rfl i q
  r0 i q := dot_S65536x16_S16x1_S65536x1_1_0_0_1_n_n.rhsIdx_val_of_single rfl i q
  r1 i q := by
    unfold DotDims.rhsIdx
    rw [dif_neg (show ¬(1 : Fin S16x1.rank) ∈ dot_S65536x16_S16x1_S65536x1_1_0_0_1_n_n.rhsBatch by decide), dif_pos (show (1 : Fin S16x1.rank) ∈ dot_S65536x16_S16x1_S65536x1_1_0_0_1_n_n.rhsNonContracting by decide)]
    rfl

/-! ## The four columns of the block -/

/-- Column `c` of the loaded block, cut out as a [65536, 1] array, reads at row p the block's entry (p, c). -/
theorem column_apply (x0 : Vec Ideal S65536x4 .f32) (hs : S65536x4.ShapeCasts S65536x4) (o : ℕ)
    (hsl : S65536x4.Slices ![0, o] S65536x1) (p : Fin 65536) (u : Fin 1) (c : Fin 4) (hc : c.val = o) :
    extractStridedSlice S65536x1 ![0, o] (shapeCast S65536x4 x0 hs) hsl (ix2 p u) = x0 (ix2 p c) := by
  rw [shapeCast_self]
  exact slice2_axis1_apply o x0 hsl p u c (by have := u.isLt; omega)

/-- The square root, entry by entry. -/
theorem sqrt_apply {s : Shape} {φ : FTy} (v : FVec Ideal s φ) (i : s.Idx) : sqrt v i = Ideal.sqrt (v i) := rfl

/-! ## The first part of the body: eigenvalues, first layer, rectifier -/

/-- Row p after the first layer: the rectified first layer of the eigenvalues of row p's four entries. -/
theorem hidden1_row (x0 : Vec Ideal S65536x4 .f32) (w1 : Vec Ideal S2x16 .f32) (b1 : Vec Ideal S16 .f32) (p : Fin 65536) :
    row (k0_pay2 x0 w1 b1) p
      = rectify zero (layer (eigs
          (trace (x0 (ix2 p (0 : Fin 4))) (x0 (ix2 p (1 : Fin 4))) (x0 (ix2 p (2 : Fin 4))) (x0 (ix2 p (3 : Fin 4))))
          (det (x0 (ix2 p (0 : Fin 4))) (x0 (ix2 p (1 : Fin 4))) (x0 (ix2 p (2 : Fin 4))) (x0 (ix2 p (3 : Fin 4)))))
          (mat w1) (vec b1)) := by
  unfold k0_pay2
  dsimp only
  refine (kernel_rectify_row _ _ p).trans (congrArg (rectify zero) ?_)
  refine (kernel_layer_row plain_2_16 _ w1 b1 _ _ p).trans (congrArg (fun f => layer f (mat w1) (vec b1)) ?_)
  funext k
  match k with
  | ⟨0, hk⟩ =>
    refine ((joinCols_apply_left _ _ _ p ⟨0, hk⟩ Nat.one_pos).trans ?_).trans (if_pos rfl).symm
    simp only [mulf_apply, addf_apply, subf_apply, maximumf_apply, broadcast_apply, sqrt_apply]
    rw [column_apply x0 _ 0 _ p _ 0 rfl, column_apply x0 _ 1 _ p _ 1 rfl, column_apply x0 _ 2 _ p _ 2 rfl,
      column_apply x0 _ 3 _ p _ 3 rfl]
    rfl
  | ⟨1, hk⟩ =>
    refine ((joinCols_apply_right _ _ _ p ⟨1, hk⟩ (Nat.le_refl 1) Nat.one_pos).trans ?_).trans (if_neg Nat.one_ne_zero).symm
    simp only [mulf_apply, addf_apply, subf_apply, maximumf_apply, broadcast_apply, sqrt_apply]
    rw [column_apply x0 _ 0 _ p _ 0 rfl, column_apply x0 _ 1 _ p _ 1 rfl, column_apply x0 _ 2 _ p _ 2 rfl,
      column_apply x0 _ 3 _ p _ 3 rfl]
    rfl

/-! ## The rest of the body: two more layers with rectifier, and the last layer -/

/-- Row p of the stored value, from row p of the first hidden layer. -/
theorem tail_row (h1 : FVec Ideal S65536x16 .f32) (w2 : Vec Ideal S16x16 .f32) (b2 : Vec Ideal S16 .f32)
    (w3 : Vec Ideal S16x16 .f32) (b3 : Vec Ideal S16 .f32) (w4 : Vec Ideal S16x1 .f32) (b4 : Vec Ideal S1 .f32) (p : Fin 65536) :
    row (k0_pay1 h1 w2 b2 w3 b3 w4 b4) p
      = layer (rectify zero (layer (rectify zero (layer (row h1 p) (mat w2) (vec b2))) (mat w3) (vec b3))) (mat w4) (vec b4) := by
  unfold k0_pay1
  dsimp only
  refine (kernel_layer_row plain_16_1 _ w4 b4 _ _ p).trans (congrArg (fun f => layer f (mat w4) (vec b4)) ?_)
  refine (kernel_rectify_row _ _ p).trans (congrArg (rectify zero) ?_)
  refine (kernel_layer_row plain_16_16 _ w3 b3 _ _ p).trans (congrArg (fun f => layer f (mat w3) (vec b3)) ?_)
  refine (kernel_rectify_row _ _ p).trans (congrArg (rectify zero) ?_)
  exact kernel_layer_row plain_16_16 h1 w2 b2 _ _ p

/-! ## The body's stored value, row by row -/

/-- Row p of the block the body stores is the network on the eigenvalues of row p of the loaded block. -/
theorem block_row (x0 : Vec Ideal S65536x4 .f32) (w1 : Vec Ideal S2x16 .f32) (b1 : Vec Ideal S16 .f32)
    (w2 : Vec Ideal S16x16 .f32) (b2 : Vec Ideal S16 .f32) (w3 : Vec Ideal S16x16 .f32) (b3 : Vec Ideal S16 .f32)
    (w4 : Vec Ideal S16x1 .f32) (b4 : Vec Ideal S1 .f32) (p : Fin 65536) :
    row (k0_pay1 (k0_pay2 x0 w1 b1) w2 b2 w3 b3 w4 b4) p
      = rowOut (trace (x0 (ix2 p (0 : Fin 4))) (x0 (ix2 p (1 : Fin 4))) (x0 (ix2 p (2 : Fin 4))) (x0 (ix2 p (3 : Fin 4))))
          (det (x0 (ix2 p (0 : Fin 4))) (x0 (ix2 p (1 : Fin 4))) (x0 (ix2 p (2 : Fin 4))) (x0 (ix2 p (3 : Fin 4))))
          (mat w1) (vec b1) (mat w2) (vec b2) (mat w3) (vec b3) (mat w4) (vec b4) := by
  rw [tail_row, hidden1_row]
  rfl

/-- The stored block at (p, u), when row p of the loaded block is row n of the flattened matrices — its entry
    2j + k is F(n, j, k) — and the weight blocks are the weight arrays: entry (n, u) of the specification. -/
theorem point_value (x0 : Vec Ideal S65536x4 .f32) (w1 : Vec Ideal S2x16 .f32) (b1 : Vec Ideal S16 .f32)
    (w2 : Vec Ideal S16x16 .f32) (b2 : Vec Ideal S16 .f32) (w3 : Vec Ideal S16x16 .f32) (b3 : Vec Ideal S16 .f32)
    (w4 : Vec Ideal S16x1 .f32) (b4 : Vec Ideal S1 .f32) (F : (⟨3, ![4194304, 2, 2]⟩ : Shape).Idx → EReal)
    (p : Fin 65536) (u : Fin 1) (n : Fin 4194304)
    (hF : ∀ (q : Fin 4) (j k : Fin 2), q.val = 2 * j.val + k.val → x0 (ix2 p q) = F (ix3 n j k)) :
    k0_pay1 (k0_pay2 x0 w1 b1) w2 b2 w3 b3 w4 b4 (ix2 p u) = outAt F w1 b1 w2 b2 w3 b3 w4 b4 n u := by
  refine (congrFun (block_row x0 w1 b1 w2 b2 w3 b3 w4 b4 p) u).trans ?_
  rw [hF 0 0 0 rfl, hF 1 0 1 rfl, hF 2 1 0 rfl, hF 3 1 1 rfl]
  rfl

end Cert.KernelIdeal.Row

end
-- ==== Proof.KernelValue.lean ====
/-
  From the kernel's blocks to its result array.

  The grid has 64 points; point t stages rows 65536·t … 65536·t + 65535 of the flattened matrices (the host reshapes
  [4194304, 2, 2] to [4194304, 4] row-major, so entry 2j + k of flattened row n is F(n, j, k)), the eight weight arrays
  whole, and writes back rows 65536·t … of the result.  By `point_value` what point t writes back is block t of the
  specification's array; the 64 blocks tile the rows (row r lies in block r / 65536), so the result array after the run IS
  the specification's function of the nine arguments.
-/
import proofs.«156269_j83202106458323_1_alg».proof.Proof.Gen.KernelIdeal.Value
import proofs.«156269_j83202106458323_1_alg».proof.Proof.KernelRow
import proofs.«156269_j83202106458323_1_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Row
open Idealize.ShloMosaic.ValueIdx Cert.EigenNet

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The specification's array of the nine arguments as launched. -/
abbrev result (c : Dev nD) : S4194304x1.Idx → Elt Ideal .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## The index maps over the grid -/

/-- The matrices' window and the result's window both sit at block (t, 0) at point t. -/
theorem idx09 : ∀ t : Fin cfg0.N, win0_0.index t (0 : Fin 2) = t.val ∧ win0_0.index t (1 : Fin 2) = 0
    ∧ win0_9.index t (0 : Fin 2) = t.val ∧ win0_9.index t (1 : Fin 2) = 0 :=
  (by decide +kernel : ∀ t : Fin grid0.N, _)

/-- Window 1's block index is zero at every point: the whole array is its one block. -/
theorem idx1 : ∀ t : Fin cfg0.N, ∀ a : Fin 2, win0_1.index t a = 0 :=
  (by decide +kernel : ∀ t : Fin grid0.N, ∀ a : Fin 2, win0_1.index t a = 0)

/-- Window 2's block index is zero at every point: the whole array is its one block. -/
theorem idx2 : ∀ t : Fin cfg0.N, ∀ a : Fin 1, win0_2.index t a = 0 :=
  (by decide +kernel : ∀ t : Fin grid0.N, ∀ a : Fin 1, win0_2.index t a = 0)

/-- Window 3's block index is zero at every point: the whole array is its one block. -/
theorem idx3 : ∀ t : Fin cfg0.N, ∀ a : Fin 2, win0_3.index t a = 0 :=
  (by decide +kernel : ∀ t : Fin grid0.N, ∀ a : Fin 2, win0_3.index t a = 0)

/-- Window 4's block index is zero at every point: the whole array is its one block. -/
theorem idx4 : ∀ t : Fin cfg0.N, ∀ a : Fin 1, win0_4.index t a = 0 :=
  (by decide +kernel : ∀ t : Fin grid0.N, ∀ a : Fin 1, win0_4.index t a = 0)

/-- Window 5's block index is zero at every point: the whole array is its one block. -/
theorem idx5 : ∀ t : Fin cfg0.N, ∀ a : Fin 2, win0_5.index t a = 0 :=
  (by decide +kernel : ∀ t : Fin grid0.N, ∀ a : Fin 2, win0_5.index t a = 0)

/-- Window 6's block index is zero at every point: the whole array is its one block. -/
theorem idx6 : ∀ t : Fin cfg0.N, ∀ a : Fin 1, win0_6.index t a = 0 :=
  (by decide +kernel : ∀ t : Fin grid0.N, ∀ a : Fin 1, win0_6.index t a = 0)

/-- Window 7's block index is zero at every point: the whole array is its one block. -/
theorem idx7 : ∀ t : Fin cfg0.N, ∀ a : Fin 2, win0_7.index t a = 0 :=
  (by decide +kernel : ∀ t : Fin grid0.N, ∀ a : Fin 2, win0_7.index t a = 0)

/-- Window 8's block index is zero at every point: the whole array is its one block. -/
theorem idx8 : ∀ t : Fin cfg0.N, ∀ a : Fin 1, win0_8.index t a = 0 :=
  (by decide +kernel : ∀ t : Fin grid0.N, ∀ a : Fin 1, win0_8.index t a = 0)

/-! ## The arrays the region finds -/

/-- The host's reshape before the region: the flattened matrices are the argument read row-major. -/
theorem V_main_v0 (c : Dev nD) :
    (V m c main_v0 : S4194304x4.Idx → Elt Ideal .f32)
      = shapeCast S4194304x4 (m ((c : Thread nD τ).loc main_arg0)) shapeCasts_S4194304x2x2_S4194304x4 := by
  dsimp only [Gen.V, Gen.hostOps0]
  after_results
  rfl

/-- Entry (p, q) of the matrices' block at point t, q = 2j + k, is F(65536·t + p, j, k). -/
theorem block0_apply (c : Dev nD) (t : Fin cfg0.N) (p : Fin 65536) (q : Fin 4) (j k : Fin 2) (hq : q.val = 2 * j.val + k.val)
    (n : Fin 4194304) (hn : n.val = t.val * 65536 + p.val) :
    (iblk m c 0 t : Vec Ideal S65536x4 .f32) (ix2 p q)
      = (m ((c : Thread nD τ).loc main_arg0) : S4194304x2x2.Idx → Elt Ideal .f32) (ix3 n j k) := by
  obtain ⟨h0, h1, -, -⟩ := idx09 t
  unfold iblk
  rw [View.read_apply]
  show V m c main_v0 _ = _
  rw [V_main_v0]
  refine shapeCast_apply _ _ _ (ix3 n j k) ?_
  rw [Shape.rowMajor_val_three, Shape.rowMajor_val_two]
  show (n.val * 2 + j.val) * 2 + k.val = (win0_0.index t (0 : Fin 2) * 65536 + 1 * p.val) * 4 + (win0_0.index t (1 : Fin 2) * 4 + 1 * q.val)
  rw [h0, h1]
  omega

/-- Window 1's block at any point is the whole of `main_arg1` as launched. -/
theorem block1 (c : Dev nD) (t : Fin cfg0.N) :
    (iblk m c 1 t : Vec Ideal S2x16 .f32) = (m ((c : Thread nD τ).loc main_arg1) : S2x16.Idx → Elt Ideal .f32) := by
  funext x
  unfold iblk
  rw [View.read_apply]
  show V m c main_arg1 _ = _
  rw [V_main_arg1]
  congr 1
  funext a
  apply Fin.ext
  match a with
  | ⟨0, _⟩ => show win0_1.index t (0 : Fin 2) * 2 + 1 * (x 0).val = (x 0).val; rw [idx1 t 0]; omega
  | ⟨1, _⟩ => show win0_1.index t (1 : Fin 2) * 16 + 1 * (x 1).val = (x 1).val; rw [idx1 t 1]; omega

/-- Window 2's block at any point is the whole of `main_arg2` as launched. -/
theorem block2 (c : Dev nD) (t : Fin cfg0.N) :
    (iblk m c 2 t : Vec Ideal S16 .f32) = (m ((c : Thread nD τ).loc main_arg2) : S16.Idx → Elt Ideal .f32) := by
  funext x
  unfold iblk
  rw [View.read_apply]
  show V m c main_arg2 _ = _
  rw [V_main_arg2]
  congr 1
  funext a
  apply Fin.ext
  match a with
  | ⟨0, _⟩ => show win0_2.index t (0 : Fin 1) * 16 + 1 * (x 0).val = (x 0).val; rw [idx2 t 0]; omega

/-- Window 3's block at any point is the whole of `main_arg3` as launched. -/
theorem block3 (c : Dev nD) (t : Fin cfg0.N) :
    (iblk m c 3 t : Vec Ideal S16x16 .f32) = (m ((c : Thread nD τ).loc main_arg3) : S16x16.Idx → Elt Ideal .f32) := by
  funext x
  unfold iblk
  rw [View.read_apply]
  show V m c main_arg3 _ = _
  rw [V_main_arg3]
  congr 1
  funext a
  apply Fin.ext
  match a with
  | ⟨0, _⟩ => show win0_3.index t (0 : Fin 2) * 16 + 1 * (x 0).val = (x 0).val; rw [idx3 t 0]; omega
  | ⟨1, _⟩ => show win0_3.index t (1 : Fin 2) * 16 + 1 * (x 1).val = (x 1).val; rw [idx3 t 1]; omega

/-- Window 4's block at any point is the whole of `main_arg4` as launched. -/
theorem block4 (c : Dev nD) (t : Fin cfg0.N) :
    (iblk m c 4 t : Vec Ideal S16 .f32) = (m ((c : Thread nD τ).loc main_arg4) : S16.Idx → Elt Ideal .f32) := by
  funext x
  unfold iblk
  rw [View.read_apply]
  show V m c main_arg4 _ = _
  rw [V_main_arg4]
  congr 1
  funext a
  apply Fin.ext
  match a with
  | ⟨0, _⟩ => show win0_4.index t (0 : Fin 1) * 16 + 1 * (x 0).val = (x 0).val; rw [idx4 t 0]; omega

/-- Window 5's block at any point is the whole of `main_arg5` as launched. -/
theorem block5 (c : Dev nD) (t : Fin cfg0.N) :
    (iblk m c 5 t : Vec Ideal S16x16 .f32) = (m ((c : Thread nD τ).loc main_arg5) : S16x16.Idx → Elt Ideal .f32) := by
  funext x
  unfold iblk
  rw [View.read_apply]
  show V m c main_arg5 _ = _
  rw [V_main_arg5]
  congr 1
  funext a
  apply Fin.ext
  match a with
  | ⟨0, _⟩ => show win0_5.index t (0 : Fin 2) * 16 + 1 * (x 0).val = (x 0).val; rw [idx5 t 0]; omega
  | ⟨1, _⟩ => show win0_5.index t (1 : Fin 2) * 16 + 1 * (x 1).val = (x 1).val; rw [idx5 t 1]; omega

/-- Window 6's block at any point is the whole of `main_arg6` as launched. -/
theorem block6 (c : Dev nD) (t : Fin cfg0.N) :
    (iblk m c 6 t : Vec Ideal S16 .f32) = (m ((c : Thread nD τ).loc main_arg6) : S16.Idx → Elt Ideal .f32) := by
  funext x
  unfold iblk
  rw [View.read_apply]
  show V m c main_arg6 _ = _
  rw [V_main_arg6]
  congr 1
  funext a
  apply Fin.ext
  match a with
  | ⟨0, _⟩ => show win0_6.index t (0 : Fin 1) * 16 + 1 * (x 0).val = (x 0).val; rw [idx6 t 0]; omega

/-- Window 7's block at any point is the whole of `main_arg7` as launched. -/
theorem block7 (c : Dev nD) (t : Fin cfg0.N) :
    (iblk m c 7 t : Vec Ideal S16x1 .f32) = (m ((c : Thread nD τ).loc main_arg7) : S16x1.Idx → Elt Ideal .f32) := by
  funext x
  unfold iblk
  rw [View.read_apply]
  show V m c main_arg7 _ = _
  rw [V_main_arg7]
  congr 1
  funext a
  apply Fin.ext
  match a with
  | ⟨0, _⟩ => show win0_7.index t (0 : Fin 2) * 16 + 1 * (x 0).val = (x 0).val; rw [idx7 t 0]; omega
  | ⟨1, _⟩ => show win0_7.index t (1 : Fin 2) * 1 + 1 * (x 1).val = (x 1).val; rw [idx7 t 1]; omega

/-- Window 8's block at any point is the whole of `main_arg8` as launched. -/
theorem block8 (c : Dev nD) (t : Fin cfg0.N) :
    (iblk m c 8 t : Vec Ideal S1 .f32) = (m ((c : Thread nD τ).loc main_arg8) : S1.Idx → Elt Ideal .f32) := by
  funext x
  unfold iblk
  rw [View.read_apply]
  show V m c main_arg8 _ = _
  rw [V_main_arg8]
  congr 1
  funext a
  apply Fin.ext
  match a with
  | ⟨0, _⟩ => show win0_8.index t (0 : Fin 1) * 1 + 1 * (x 0).val = (x 0).val; rw [idx8 t 0]; omega

/-! ## What a point writes back -/

/-- WHAT POINT t WRITES BACK is block t of the specification's array. -/
theorem flushed_eq (c : Dev nD) (t : Fin cfg0.N) :
    (dats m 0 c).flushed 9 t = ((cfg0.win 9).blk t).view.read (Elt Ideal) (result m c) := by
  rw [flushed9]
  unfold out0_9
  rw [View.canon_unit_zero hz2]
  simp only [View.ld_unit_zero (S := S65536x4) hz2, View.ld_unit_zero (S := S2x16) hz2, View.ld_unit_zero (S := S16) hz1,
    View.ld_unit_zero (S := S16x16) hz2, View.ld_unit_zero (S := S16x1) hz2, View.ld_unit_zero (S := S1) hz1]
  rw [block1 m c t, block2 m c t, block3 m c t, block4 m c t, block5 m c t, block6 m c t, block7 m c t, block8 m c t]
  obtain ⟨-, -, h90, h91⟩ := idx09 t
  have hN : cfg0.N = 64 := N_0
  funext y
  obtain ⟨p, u, rfl⟩ : ∃ (p : Fin 65536) (u : Fin 1), y = ix2 p u := ⟨y 0, y 1, eq_ix2 y⟩
  have hn : t.val * 65536 + p.val < 4194304 := by have := t.isLt; have := p.isLt; omega
  have he : ((cfg0.win 9).blk t).view.emb (ix2 p u) = ix2 (⟨t.val * 65536 + p.val, hn⟩ : Fin 4194304) u := by
    funext a
    apply Fin.ext
    match a with
    | ⟨0, _⟩ => show win0_9.index t (0 : Fin 2) * 65536 + 1 * p.val = t.val * 65536 + p.val; rw [h90]; omega
    | ⟨1, _⟩ => show win0_9.index t (1 : Fin 2) * 1 + 1 * u.val = u.val; rw [h91]; omega
  show _ = result m c (((cfg0.win 9).blk t).view.emb (ix2 p u))
  rw [he]
  exact point_value (iblk m c 0 t) _ _ _ _ _ _ _ _ _ p u ⟨t.val * 65536 + p.val, hn⟩
    (fun q j k hq => block0_apply m c t p q j k hq _ rfl)

/-! ## The 64 blocks tile the result -/

/-- An index of the result is in point t's block iff each coordinate is in the block's range on its axis. -/
theorem mem_blk (t : Fin cfg0.N) (i : S4194304x1.Idx) :
    i ∈ ((cfg0.win 9).blk t).view.set ↔ ∀ a : Fin 2, win0_9.index t a * S65536x1.size a ≤ (i a).val
      ∧ (i a).val < win0_9.index t a * S65536x1.size a + S65536x1.size a := by
  show i ∈ ((View.whole main_v1).slice (win0_9.rect t)).set ↔ _
  rw [View.set_slice_whole, Rect.mem_set_unit]
  exact Iff.rfl

/-- Row r of the result lies in the block of point r / 65536. -/
theorem cover (i : S4194304x1.Idx) :
    ∃ t : Fin cfg0.N, (cfg0.win 9).flush t = true ∧ i ∈ ((cfg0.win 9).blk t).view.set := by
  have hi0 : (i 0).val < 4194304 := (i 0).isLt
  have hi1 : (i 1).val < 1 := (i 1).isLt
  have hN : cfg0.N = 64 := N_0
  have ht : (i 0).val / 65536 < cfg0.N := by rw [hN]; omega
  refine ⟨⟨(i 0).val / 65536, ht⟩, flush0_9 _, ?_⟩
  obtain ⟨-, -, h90, h91⟩ := idx09 ⟨(i 0).val / 65536, ht⟩
  rw [mem_blk]
  intro a
  match a with
  | ⟨0, _⟩ =>
    show win0_9.index ⟨(i 0).val / 65536, ht⟩ (0 : Fin 2) * 65536 ≤ (i 0).val
      ∧ (i 0).val < win0_9.index ⟨(i 0).val / 65536, ht⟩ (0 : Fin 2) * 65536 + 65536
    rw [h90]
    show (i 0).val / 65536 * 65536 ≤ (i 0).val ∧ (i 0).val < (i 0).val / 65536 * 65536 + 65536
    omega
  | ⟨1, _⟩ =>
    show win0_9.index ⟨(i 0).val / 65536, ht⟩ (1 : Fin 2) * 1 ≤ (i 1).val
      ∧ (i 1).val < win0_9.index ⟨(i 0).val / 65536, ht⟩ (1 : Fin 2) * 1 + 1
    rw [h91]
    omega

/-! ## The array after the run, and the run -/

/-- The result array after the run is the specification's array. -/
theorem final (c : Dev nD) : (dats m 0 c).arrAt 9 cfg0.N = result m c :=
  (dats m 0 c).arrAt_eq_of_cover 9 (result m c) (fun t _ => flushed_eq m c t) cover

/-- The kernel's run: the result at the specification's array, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Whole

end
-- ==== Proof.RefValue.lean ====
/-
  The reference's result is the specification.

  The reference forms C = FᵀF for all rows at once by a batched contraction, entry (n, j, k) = Σ_i F(n, i, j) · F(n, i, k),
  picks the four entries of C out as vectors over the rows, and computes trace, determinant, clamped root and the two
  eigenvalues entrywise on those vectors; it stacks the two eigenvalue vectors as the columns of a [4194304, 2] matrix
  and applies the four layers as whole-matrix products.  Read one row at a time this is the network of `Spec` on
  the eigenvalues, with trace and determinant spelt through the entries of C; `gram_trace` and `gram_det` turn them into
  the polynomials in the four entries of F.
-/
import proofs.«156269_j83202106458323_1_alg».proof.Proof.Gen.ReferenceIdeal.Read
import proofs.«156269_j83202106458323_1_alg».proof.Proof.LibRowLayers
import proofs.«156269_j83202106458323_1_alg».proof.Proof.LibJoin
import proofs.«156269_j83202106458323_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Read Idealize.ShloMosaic Idealize.ShloMosaic.ValueIdx
open Cert.LibRowLayers Cert.LibMatRows Cert.LibHostBroadcast Cert.LibJoin Cert.EigenNet

/-! ## The three layer products are plain rows-times-matrix products -/

theorem plain_2_16 : RowsTimesMat dot_S4194304x2_S2x16_S4194304x16_1_0_0_1_n_n :=
  ⟨rfl, rfl, lhs_main_v33_0, lhs_main_v33_1, rhs_main_v33_0, rhs_main_v33_1⟩

theorem plain_16_16 : RowsTimesMat dot_S4194304x16_S16x16_S4194304x16_1_0_0_1_n_n :=
  ⟨rfl, rfl, lhs_main_v38_0, lhs_main_v38_1, rhs_main_v38_0, rhs_main_v38_1⟩

theorem plain_16_1 : RowsTimesMat dot_S4194304x16_S16x1_S4194304x1_1_0_0_1_n_n :=
  ⟨rfl, rfl, lhs_main_v48_0, lhs_main_v48_1, rhs_main_v48_0, rhs_main_v48_1⟩

/-! ## The entries of FᵀF, row by row -/

/-- Entry (n, j, k) of the batched contraction is entry (j, k) of FᵀF for row n's matrix. -/
theorem gram_entry (x0 : (⟨S4194304x2x2, .f32⟩ : BufTy).Contents (Elt Ideal)) (n : Fin 4194304) (j k : Fin 2) :
    val_main_v0 (F := Ideal) x0 (ix3 n j k) = gram (fun i j => x0 (ix3 n i j)) j k := by
  rw [val_main_v0_apply]
  refine Finset.sum_congr rfl fun i _ => ?_
  have el : lidx_main_v0 (ix3 n j k) i = ix3 n i j := funext fun a => Fin.ext (by
    match a with
    | ⟨0, _⟩ => rfl
    | ⟨1, _⟩ => rfl
    | ⟨2, _⟩ => rfl)
  have er : ridx_main_v0 (ix3 n j k) i = ix3 n i k := funext fun a => Fin.ext (by
    match a with
    | ⟨0, _⟩ => rfl
    | ⟨1, _⟩ => rfl
    | ⟨2, _⟩ => rfl)
  rw [el, er]

/-- One entry of every row's 2×2 matrix, cut out as [4194304, 1, 1] and flattened to a vector, reads at n that entry of row n. -/
theorem pick_apply {α : Type} (y : S4194304x2x2.Idx → α) (oj ok : ℕ) (hsl : S4194304x2x2.Slices ![0, oj, ok] S4194304x1x1)
    (hsc : S4194304x1x1.ShapeCasts S4194304) (n : Fin 4194304) (j k : Fin 2) (hj : j.val = oj) (hk : k.val = ok) :
    shapeCast S4194304 (extractStridedSlice S4194304x1x1 ![0, oj, ok] y hsl) hsc (ix1 n) = y (ix3 n j k) := by
  refine (shapeCast_apply _ hsc (ix1 n) (ix3 n (0 : Fin 1) (0 : Fin 1)) ?_).trans
    (extractStridedSlice_apply _ y hsl (ix3 n (0 : Fin 1) (0 : Fin 1)) (ix3 n j k) fun a => ?_)
  · rw [Shape.rowMajor_val_three, Shape.rowMajor_val_one]
    show (n.val * 1 + 0) * 1 + 0 = n.val
    omega
  · match a with
    | ⟨0, _⟩ => exact (Nat.zero_add _).symm
    | ⟨1, _⟩ => show j.val = oj + 0; omega
    | ⟨2, _⟩ => show k.val = ok + 0; omega

/-- The reference's slice [0:1, 0:1] of FᵀF, flattened to a vector, at row n. -/
theorem entry_v2 (x0 : (⟨S4194304x2x2, .f32⟩ : BufTy).Contents (Elt Ideal)) (n : Fin 4194304) :
    val_main_v2 (F := Ideal) x0 (ix1 n) = gram (fun i j => x0 (ix3 n i j)) 0 0 := by
  unfold val_main_v2 val_main_v1
  exact (pick_apply _ 0 0 _ _ n 0 0 rfl rfl).trans (gram_entry x0 n 0 0)

/-- The reference's slice [1:2, 1:2] of FᵀF, flattened to a vector, at row n. -/
theorem entry_v4 (x0 : (⟨S4194304x2x2, .f32⟩ : BufTy).Contents (Elt Ideal)) (n : Fin 4194304) :
    val_main_v4 (F := Ideal) x0 (ix1 n) = gram (fun i j => x0 (ix3 n i j)) 1 1 := by
  unfold val_main_v4 val_main_v3
  exact (pick_apply _ 1 1 _ _ n 1 1 rfl rfl).trans (gram_entry x0 n 1 1)

/-- The reference's slice [0:1, 0:1] of FᵀF, flattened to a vector, at row n. -/
theorem entry_v7 (x0 : (⟨S4194304x2x2, .f32⟩ : BufTy).Contents (Elt Ideal)) (n : Fin 4194304) :
    val_main_v7 (F := Ideal) x0 (ix1 n) = gram (fun i j => x0 (ix3 n i j)) 0 0 := by
  unfold val_main_v7 val_main_v6
  exact (pick_apply _ 0 0 _ _ n 0 0 rfl rfl).trans (gram_entry x0 n 0 0)

/-- The reference's slice [1:2, 1:2] of FᵀF, flattened to a vector, at row n. -/
theorem entry_v9 (x0 : (⟨S4194304x2x2, .f32⟩ : BufTy).Contents (Elt Ideal)) (n : Fin 4194304) :
    val_main_v9 (F := Ideal) x0 (ix1 n) = gram (fun i j => x0 (ix3 n i j)) 1 1 := by
  unfold val_main_v9 val_main_v8
  exact (pick_apply _ 1 1 _ _ n 1 1 rfl rfl).trans (gram_entry x0 n 1 1)

/-- The reference's slice [0:1, 1:2] of FᵀF, flattened to a vector, at row n. -/
theorem entry_v12 (x0 : (⟨S4194304x2x2, .f32⟩ : BufTy).Contents (Elt Ideal)) (n : Fin 4194304) :
    val_main_v12 (F := Ideal) x0 (ix1 n) = gram (fun i j => x0 (ix3 n i j)) 0 1 := by
  unfold val_main_v12 val_main_v11
  exact (pick_apply _ 0 1 _ _ n 0 1 rfl rfl).trans (gram_entry x0 n 0 1)

/-- The reference's slice [1:2, 0:1] of FᵀF, flattened to a vector, at row n. -/
theorem entry_v14 (x0 : (⟨S4194304x2x2, .f32⟩ : BufTy).Contents (Elt Ideal)) (n : Fin 4194304) :
    val_main_v14 (F := Ideal) x0 (ix1 n) = gram (fun i j => x0 (ix3 n i j)) 1 0 := by
  unfold val_main_v14 val_main_v13
  exact (pick_apply _ 1 0 _ _ n 1 0 rfl rfl).trans (gram_entry x0 n 1 0)

/-! ## Trace, determinant and the two eigenvalues, row by row -/

/-- The reference's trace vector at row n. -/
theorem trace_at (x0 : (⟨S4194304x2x2, .f32⟩ : BufTy).Contents (Elt Ideal)) (n : Fin 4194304) :
    val_main_v5 (F := Ideal) x0 (ix1 n) = (trace (x0 (ix3 n (0 : Fin 2) (0 : Fin 2))) (x0 (ix3 n (0 : Fin 2) (1 : Fin 2))) (x0 (ix3 n (1 : Fin 2) (0 : Fin 2))) (x0 (ix3 n (1 : Fin 2) (1 : Fin 2)))) := by
  rw [val_main_v5_apply, entry_v2, entry_v4]
  exact gram_trace (fun i j => x0 (ix3 n i j))

/-- The reference's determinant vector at row n. -/
theorem det_at (x0 : (⟨S4194304x2x2, .f32⟩ : BufTy).Contents (Elt Ideal)) (n : Fin 4194304) :
    val_main_v16 (F := Ideal) x0 (ix1 n) = (det (x0 (ix3 n (0 : Fin 2) (0 : Fin 2))) (x0 (ix3 n (0 : Fin 2) (1 : Fin 2))) (x0 (ix3 n (1 : Fin 2) (0 : Fin 2))) (x0 (ix3 n (1 : Fin 2) (1 : Fin 2)))) := by
  rw [val_main_v16_apply, val_main_v10_apply, val_main_v15_apply, entry_v7, entry_v9, entry_v12, entry_v14]
  exact gram_det (fun i j => x0 (ix3 n i j))

/-- The clamped root at row n. -/
theorem gap_at (x0 : (⟨S4194304x2x2, .f32⟩ : BufTy).Contents (Elt Ideal)) (n : Fin 4194304) :
    val_main_v23 (F := Ideal) x0 (ix1 n) = gap (trace (x0 (ix3 n (0 : Fin 2) (0 : Fin 2))) (x0 (ix3 n (0 : Fin 2) (1 : Fin 2))) (x0 (ix3 n (1 : Fin 2) (0 : Fin 2))) (x0 (ix3 n (1 : Fin 2) (1 : Fin 2)))) (det (x0 (ix3 n (0 : Fin 2) (0 : Fin 2))) (x0 (ix3 n (0 : Fin 2) (1 : Fin 2))) (x0 (ix3 n (1 : Fin 2) (0 : Fin 2))) (x0 (ix3 n (1 : Fin 2) (1 : Fin 2)))) := by
  rw [val_main_v23_apply, val_main_v22_apply, val_main_v21_apply, val_main_cst_0_apply, val_main_v20_apply, val_main_v17_apply,
    val_main_v19_apply, val_main_v18_apply, val_main_cst_apply, trace_at, det_at]
  rfl

/-- The larger eigenvalue at row n. -/
theorem eig0_at (x0 : (⟨S4194304x2x2, .f32⟩ : BufTy).Contents (Elt Ideal)) (n : Fin 4194304) :
    val_main_v26 (F := Ideal) x0 (ix1 n) = half * ((trace (x0 (ix3 n (0 : Fin 2) (0 : Fin 2))) (x0 (ix3 n (0 : Fin 2) (1 : Fin 2))) (x0 (ix3 n (1 : Fin 2) (0 : Fin 2))) (x0 (ix3 n (1 : Fin 2) (1 : Fin 2)))) + gap (trace (x0 (ix3 n (0 : Fin 2) (0 : Fin 2))) (x0 (ix3 n (0 : Fin 2) (1 : Fin 2))) (x0 (ix3 n (1 : Fin 2) (0 : Fin 2))) (x0 (ix3 n (1 : Fin 2) (1 : Fin 2)))) (det (x0 (ix3 n (0 : Fin 2) (0 : Fin 2))) (x0 (ix3 n (0 : Fin 2) (1 : Fin 2))) (x0 (ix3 n (1 : Fin 2) (0 : Fin 2))) (x0 (ix3 n (1 : Fin 2) (1 : Fin 2))))) := by
  rw [val_main_v26_apply, val_main_v25_apply, val_main_cst_1_apply, val_main_v24_apply, trace_at, gap_at]
  rfl

/-- The smaller eigenvalue at row n. -/
theorem eig1_at (x0 : (⟨S4194304x2x2, .f32⟩ : BufTy).Contents (Elt Ideal)) (n : Fin 4194304) :
    val_main_v29 (F := Ideal) x0 (ix1 n) = half * ((trace (x0 (ix3 n (0 : Fin 2) (0 : Fin 2))) (x0 (ix3 n (0 : Fin 2) (1 : Fin 2))) (x0 (ix3 n (1 : Fin 2) (0 : Fin 2))) (x0 (ix3 n (1 : Fin 2) (1 : Fin 2)))) - gap (trace (x0 (ix3 n (0 : Fin 2) (0 : Fin 2))) (x0 (ix3 n (0 : Fin 2) (1 : Fin 2))) (x0 (ix3 n (1 : Fin 2) (0 : Fin 2))) (x0 (ix3 n (1 : Fin 2) (1 : Fin 2)))) (det (x0 (ix3 n (0 : Fin 2) (0 : Fin 2))) (x0 (ix3 n (0 : Fin 2) (1 : Fin 2))) (x0 (ix3 n (1 : Fin 2) (0 : Fin 2))) (x0 (ix3 n (1 : Fin 2) (1 : Fin 2))))) := by
  rw [val_main_v29_apply, val_main_v28_apply, val_main_cst_2_apply, val_main_v27_apply, trace_at, gap_at]
  rfl

/-- Row n of the stacked eigenvalue matrix. -/
theorem eigs_row (x0 : (⟨S4194304x2x2, .f32⟩ : BufTy).Contents (Elt Ideal)) (n : Fin 4194304) :
    row (val_main_v32 (F := Ideal) x0) n = eigs (trace (x0 (ix3 n (0 : Fin 2) (0 : Fin 2))) (x0 (ix3 n (0 : Fin 2) (1 : Fin 2))) (x0 (ix3 n (1 : Fin 2) (0 : Fin 2))) (x0 (ix3 n (1 : Fin 2) (1 : Fin 2)))) (det (x0 (ix3 n (0 : Fin 2) (0 : Fin 2))) (x0 (ix3 n (0 : Fin 2) (1 : Fin 2))) (x0 (ix3 n (1 : Fin 2) (0 : Fin 2))) (x0 (ix3 n (1 : Fin 2) (1 : Fin 2)))) := by
  unfold val_main_v32 val_main_v30 val_main_v31
  funext k
  match k with
  | ⟨0, hk⟩ =>
    exact ((joinCols_apply_left _ _ _ n ⟨0, hk⟩ Nat.one_pos).trans
      ((vec_to_col_apply _ _ n _).trans (eig0_at x0 n))).trans (if_pos rfl).symm
  | ⟨1, hk⟩ =>
    exact ((joinCols_apply_right _ _ _ n ⟨1, hk⟩ (Nat.le_refl 1) Nat.one_pos).trans
      ((vec_to_col_apply _ _ n _).trans (eig1_at x0 n))).trans (if_neg Nat.one_ne_zero).symm

/-! ## The four layers, row by row -/

/-- Row n of the reference's result is the network on the eigenvalues of row n's FᵀF. -/
theorem out_row (x0 : (⟨S4194304x2x2, .f32⟩ : BufTy).Contents (Elt Ideal)) (x1 : (⟨S2x16, .f32⟩ : BufTy).Contents (Elt Ideal)) (x2 : (⟨S16, .f32⟩ : BufTy).Contents (Elt Ideal))
    (x3 : (⟨S16x16, .f32⟩ : BufTy).Contents (Elt Ideal)) (x4 : (⟨S16, .f32⟩ : BufTy).Contents (Elt Ideal))
    (x5 : (⟨S16x16, .f32⟩ : BufTy).Contents (Elt Ideal)) (x6 : (⟨S16, .f32⟩ : BufTy).Contents (Elt Ideal))
    (x7 : (⟨S16x1, .f32⟩ : BufTy).Contents (Elt Ideal)) (x8 : (⟨S1, .f32⟩ : BufTy).Contents (Elt Ideal)) (n : Fin 4194304) :
    row (val_main_v51 (F := Ideal) x0 x1 x2 x3 x4 x5 x6 x7 x8) n
      = rowOut (trace (x0 (ix3 n (0 : Fin 2) (0 : Fin 2))) (x0 (ix3 n (0 : Fin 2) (1 : Fin 2))) (x0 (ix3 n (1 : Fin 2) (0 : Fin 2))) (x0 (ix3 n (1 : Fin 2) (1 : Fin 2))))
          (det (x0 (ix3 n (0 : Fin 2) (0 : Fin 2))) (x0 (ix3 n (0 : Fin 2) (1 : Fin 2))) (x0 (ix3 n (1 : Fin 2) (0 : Fin 2))) (x0 (ix3 n (1 : Fin 2) (1 : Fin 2))))
          (mat x1) (vec x2) (mat x3) (vec x4) (mat x5) (vec x6) (mat x7) (vec x8) := by
  unfold val_main_v51 val_main_v50 val_main_v49 val_main_v48
  refine (host_layer_row plain_16_1 _ x7 x8 _ _ n).trans (congrArg (fun f => layer f (mat x7) (vec x8)) ?_)
  unfold val_main_v47 val_main_call2_v0 val_main_call2_cst
  refine (host_rectify_row _ _ _ n).trans (congrArg (rectify zero) ?_)
  unfold val_main_v46 val_main_v45 val_main_v44 val_main_v43
  refine (host_layer_row plain_16_16 _ x5 x6 _ _ n).trans (congrArg (fun f => layer f (mat x5) (vec x6)) ?_)
  unfold val_main_v42 val_main_call1_v0 val_main_call1_cst
  refine (host_rectify_row _ _ _ n).trans (congrArg (rectify zero) ?_)
  unfold val_main_v41 val_main_v40 val_main_v39 val_main_v38
  refine (host_layer_row plain_16_16 _ x3 x4 _ _ n).trans (congrArg (fun f => layer f (mat x3) (vec x4)) ?_)
  unfold val_main_v37 val_main_call0_v0 val_main_call0_cst
  refine (host_rectify_row _ _ _ n).trans (congrArg (rectify zero) ?_)
  unfold val_main_v36 val_main_v35 val_main_v34 val_main_v33
  refine (host_layer_row plain_2_16 _ x1 x2 _ _ n).trans (congrArg (fun f => layer f (mat x1) (vec x2)) ?_)
  exact eigs_row x0 n

/-- The reference's result array is the specification's function of the nine arguments. -/
theorem result_eq (x0 : (⟨S4194304x2x2, .f32⟩ : BufTy).Contents (Elt Ideal)) (x1 : (⟨S2x16, .f32⟩ : BufTy).Contents (Elt Ideal)) (x2 : (⟨S16, .f32⟩ : BufTy).Contents (Elt Ideal))
    (x3 : (⟨S16x16, .f32⟩ : BufTy).Contents (Elt Ideal)) (x4 : (⟨S16, .f32⟩ : BufTy).Contents (Elt Ideal))
    (x5 : (⟨S16x16, .f32⟩ : BufTy).Contents (Elt Ideal)) (x6 : (⟨S16, .f32⟩ : BufTy).Contents (Elt Ideal))
    (x7 : (⟨S16x1, .f32⟩ : BufTy).Contents (Elt Ideal)) (x8 : (⟨S1, .f32⟩ : BufTy).Contents (Elt Ideal)) :
    val_main_v51 (F := Ideal) x0 x1 x2 x3 x4 x5 x6 x7 x8 = G x0 x1 x2 x3 x4 x5 x6 x7 x8 := by
  funext i
  rw [eq_ix2 i]
  exact congrFun (out_row x0 x1 x2 x3 x4 x5 x6 x7 x8 (i 0)) (i 1)

end Cert.ReferenceIdeal.RefValue

end
-- ==== Proof.lean ====
/- The proof of `Cert.Claim`.

   Per row n of the input, a 2×2 matrix F: both programs compute the two eigenvalues  ½ (t ± √ max(t² − 4D, ε))  of  FᵀF
   from its trace t and determinant D, and feed them to a perceptron 2 → 16 → 16 → 16 → 1 with rectifiers.  The kernel
   spells t and D as polynomials in the four entries of F and works on blocks of 65536 rows; the reference forms FᵀF by a
   batched contraction and reads t and D off its entries, on all rows at once.  Over the extended reals the two agree by
   commutativity and associativity of + and · alone (Proof/Spec.lean), so the precondition is never opened for the values.

   Proof/Spec.lean         the specification: one function G of the nine arguments, and the two regrouping laws
   Proof/LibRowLayers.lean a layer and a rectifier on ONE row, as a kernel and as the host compute it
   Proof/KernelRow.lean    row p of the block the kernel's body stores
   Proof/KernelValue.lean  the 64 blocks tile the result: the kernel's result array is G
   Proof/RefValue.lean     the reference's result array is G
   The three frames are the generated ones (the reference's is its generated run with the result dropped); the
   idealization rewrote nothing, so its ledger is empty. -/
import proofs.«156269_j83202106458323_1_alg».proof.Defs
import proofs.«156269_j83202106458323_1_alg».proof.Proof.Gen.Kernel
import proofs.«156269_j83202106458323_1_alg».proof.Proof.Gen.Kernel.Skeleton
import proofs.«156269_j83202106458323_1_alg».proof.Proof.Gen.Kernel.Launch
import proofs.«156269_j83202106458323_1_alg».proof.Proof.Gen.Kernel.Points
import proofs.«156269_j83202106458323_1_alg».proof.Proof.Gen.Kernel.Frame
import proofs.«156269_j83202106458323_1_alg».proof.Proof.Gen.KernelIdeal
import proofs.«156269_j83202106458323_1_alg».proof.Proof.Gen.KernelIdeal.Skeleton
import proofs.«156269_j83202106458323_1_alg».proof.Proof.Gen.KernelIdeal.Launch
import proofs.«156269_j83202106458323_1_alg».proof.Proof.Gen.KernelIdeal.Points
import proofs.«156269_j83202106458323_1_alg».proof.Proof.Gen.KernelIdeal.Frame
import proofs.«156269_j83202106458323_1_alg».proof.Proof.Gen.ReferenceIdeal
import proofs.«156269_j83202106458323_1_alg».proof.Proof.Gen.Pre_finite_inputs
import proofs.«156269_j83202106458323_1_alg».proof.Proof.Gen.KernelIdeal.Value
import proofs.«156269_j83202106458323_1_alg».proof.Proof.Gen.ReferenceIdeal.Run
import proofs.«156269_j83202106458323_1_alg».proof.Proof.Gen.ReferenceIdeal.Read
import proofs.«156269_j83202106458323_1_alg».proof.Proof.KernelValue
import proofs.«156269_j83202106458323_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading at the extended reals. -/
theorem preserves : Cert.preserves_Kernel_KernelIdeal := trivial

/-- From memories that agree on the nine arguments, both programs end with the specification's array G of them. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.RefValue.result_eq]
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
